-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x512 : Shape := ⟨2, ![1, 512]⟩
abbrev S1024x2048 : Shape := ⟨2, ![1024, 2048]⟩
abbrev S1024x128 : Shape := ⟨2, ![1024, 128]⟩
abbrev S1024x512 : Shape := ⟨2, ![1024, 512]⟩
abbrev S2048x512 : Shape := ⟨2, ![2048, 512]⟩
abbrev S1024x1 : Shape := ⟨2, ![1024, 1]⟩

abbrev nBuf : Space → Nat
  | .hbm => 21
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x8192, .bf16⟩
  | .hbm, ⟨13, _⟩ => ⟨S8192x1, .f32⟩
  | .hbm, ⟨14, _⟩ => ⟨S8192x512, .f32⟩
  | .hbm, ⟨15, _⟩ => ⟨S8192x512, .f32⟩
  | .hbm, ⟨16, _⟩ => ⟨S8192x512, .bf16⟩
  | .hbm, ⟨17, _⟩ => ⟨S8192x1, .f32⟩
  | .hbm, ⟨18, _⟩ => ⟨S8192x128, .f32⟩
  | .hbm, ⟨19, _⟩ => ⟨S1x512, .f32⟩
  | .hbm, ⟨20, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S8192x512, .bf16⟩
  | .local _ .vmem, ⟨3, _⟩ => ⟨S1024x128, .f32⟩
  | .local _ .vmem, ⟨4, _⟩ => ⟨S1024x128, .f32⟩
  | .local _ .vmem, ⟨5, _⟩ => ⟨S512x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def k0_mult2 (i : grid0.Coords) : BitVec 32 :=
  let arg0 : BitVec 32 := BitVec.ofNat 32 (i 0).val
  let c1024_i32 : BitVec 32 := 1024#32
  let v19 : BitVec 32 := Scalar.muli arg0 c1024_i32
  v19
def k0_off2 (i : grid0.Coords) : Fin 2 → Nat :=
  let arg0 : BitVec 32 := BitVec.ofNat 32 (i 0).val
  let c1024_i32 : BitVec 32 := 1024#32
  let v19 : BitVec 32 := Scalar.muli arg0 c1024_i32
  let v20 : BitVec 32 := v19
  let v21 : Index := Scalar.indexCast v20
  let c0_8 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bitsLt_bf16_f32 : FTy.bits .bf16 < FTy.bits .f32
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S8192x1_S8192x128_0_1 : S8192x1.BroadcastsInDim S8192x128 (![0, 1] : Fin 2 → Fin S8192x128.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  h_S2048x512 : 0 < S2048x512.numel
  shapeCasts_S2048x512_S2048x512 : S2048x512.ShapeCasts S2048x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x128_S1024x1_0_0 : ∀ a, (![0, 0] : Fin 2 → Nat) a + S1024x1.size a ≤ S1024x128.size a
  h_S1024x1 : 0 < S1024x1.numel
  shapeCasts_S1024x1_S1024x1 : S1024x1.ShapeCasts S1024x1
  broadcasts_S1024x1_S1024x512 : S1024x1.Broadcasts S1024x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x2048_S2048x512_S1024x512_1_0_0_1_n_n_wf : DotDims.WF S1024x2048 S2048x512 S1024x512 [1] [0] [0] [1] [] []
  dot_S1024x512_S512x512_S1024x512_1_1_0_0_n_n_wf : DotDims.WF S1024x512 S512x512 S1024x512 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x512.size a ≤ S8192x512.size a
  k0_mult2_dvd : ∀ i : grid0.Coords, ∀ (k0_h2 : k0_cond2 i = 1#1), 1024 ∣ (k0_mult2 i).toNat
  k0_off2_inb : ∀ i : grid0.Coords, ∀ (k0_h2 : k0_cond2 i = 1#1), ∀ a, (k0_off2 i) a + S1024x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .bf16 = 32 ∨ (Rect.block (s := S8192x8192) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S8192x512.size a
  hwx0_5 : ∀ i : grid0.Coords, EltTy.bits .f32 = 32 ∨ (Rect.block (s := S8192x512) S1024x512.size (cc0_transform_5 i) (hinb0_5 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v5) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x512, .f32⟩
  | .hbm, ⟨24, _⟩ => ⟨S512x512, .f32⟩
  | .hbm, ⟨25, _⟩ => ⟨S8192x512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_cst : Ref sig .tc := ⟨.hbm, 29, rfl⟩
abbrev main_call0_v0 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.LibRealSums.lean ====
/-
  Finite sums of extended reals that are all real numbers.

  The coercion of the reals into the extended reals is additive, so it commutes with a sum over any finite set; hence a
  finite sum of extended reals each of which is (the image of) a real number is itself one. This is what lets an
  equation between finite sums and products on the extended reals, whose entries are known to be finite, be proved over
  the reals, where distributivity and cancellation hold.
-/
import Mathlib

open scoped BigOperators

namespace Cert.LibRealSums

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals that are all real numbers is a real number. -/
theorem exists_real_sum {ι : Type*} (s : Finset ι) (f : ι → EReal) (h : ∀ i, ∃ r : ℝ, f i = r) :
    ∃ r : ℝ, ∑ i ∈ s, f i = r := by
  choose g hg using h
  exact ⟨∑ i ∈ s, g i, by rw [coe_finset_sum]; exact Finset.sum_congr rfl fun i _ => hg i⟩

end Cert.LibRealSums
-- ==== Proof.NormalizedSum.lean ====
/-
  The law that joins a graph convolution written with a normalised adjacency matrix to the one that scales the
  features first.

  For a vector of degrees' inverse square roots `d`, an adjacency matrix `a` and one feature column `x`,

      Σ_j ((d_i · (a_ij + δ_ij)) · d_j) · x_j  =  d_i · ((Σ_j a_ij · (d_j · x_j)) + d_i · x_i)

  where δ is the identity matrix: the self-loop's term of the left sum is `d_i · d_i · x_i`, and `d_i` comes out of
  the rest. Over the reals this is distributivity and the fact that summing `δ_ij · f j` over `j` picks `f i`.

  On the extended reals distributivity fails at the infinities, so the same equation is stated there for entries that
  are all real numbers: the coercion from the reals commutes with products, sums and finite sums, which carries the
  real equation over.
-/
import Mathlib
import proofs.«155972_j30958124270375_2_alg».proof.Proof.LibRealSums

open scoped BigOperators

namespace Cert.Gcn

open Cert.LibRealSums

/-- The law over the reals. -/
theorem normalized_sum_real {ι : Type*} [Fintype ι] [DecidableEq ι] (d : ι → ℝ) (a : ι → ι → ℝ) (x : ι → ℝ) (i : ι) :
    ∑ j, ((d i * (a i j + if i = j then 1 else 0)) * d j) * x j
      = d i * ((∑ j, a i j * (d j * x j)) + d i * x i) := by
  have h : ∀ j, ((d i * (a i j + if i = j then 1 else 0)) * d j) * x j
      = d i * (a i j * (d j * x j)) + (if i = j then d i * (d j * x j) else 0) := by
    intro j
    split_ifs <;> ring
  simp_rw [h]
  rw [Finset.sum_add_distrib, ← Finset.mul_sum, Finset.sum_ite_eq, if_pos (Finset.mem_univ i), mul_add]

/-- The law over the extended reals, for entries that are all real numbers; `δ` is the identity matrix. -/
theorem normalized_sum {ι : Type*} [Fintype ι] [DecidableEq ι] (D : ι → EReal) (A : ι → ι → EReal) (X : ι → EReal)
    (δ : ι → ι → EReal) (hδ : ∀ i j, δ i j = if i = j then 1 else 0)
    (hD : ∀ i, ∃ r : ℝ, D i = r) (hA : ∀ i j, ∃ r : ℝ, A i j = r) (hX : ∀ j, ∃ r : ℝ, X j = r) (i : ι) :
    ∑ j, ((D i * (A i j + δ i j)) * D j) * X j = D i * ((∑ j, A i j * (D j * X j)) + D i * X i) := by
  choose d hd using hD
  choose a ha using hA
  choose x hx using hX
  have hδ' : ∀ j, δ i j = (((if i = j then 1 else 0 : ℝ)) : EReal) := by
    intro j
    rw [hδ]
    split_ifs <;> simp
  simp only [hd, ha, hx, hδ', ← EReal.coe_mul, ← EReal.coe_add, ← coe_finset_sum]
  exact congrArg _ (normalized_sum_real d a x i)

end Cert.Gcn
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.GcnSpec.lean ====
/-
  One graph-convolution layer as a function of its four arrays, and the two arrangements of it that are proved equal.

  For features `X` [8192, 512], adjacency `A` [8192, 8192], weights `W` [512, 512] and bias `B` [512], with
  `d_i = (Σ_j A_ij + 1)^(-1/2)`:

      support_ie = d_i · ((Σ_j A_ij · (d_j · X_je)) + d_i · X_ie)
      out_io     = max ((Σ_e support_ie · W_oe) + B_o) 0.

  One arrangement scales the features by `d` first, adds the zero word to each sum it starts, adds the word of 1.0 to
  the row sums, and takes the sum over `j` in four blocks of 2048 columns; it equals the layer with no hypothesis,
  because addition on the extended reals is a commutative monoid and both words are the numbers 0 and 1.

  The other arrangement forms the normalised matrix `d_i · (A_ij + δ_ij) · d_j` with the identity matrix `δ` and
  contracts it with `X`; it equals the layer when every entry of `A` and `X` is a real number, by the law of
  NormalizedSum (the row sums of `A + δ` are those of `A` plus one with no hypothesis).
-/
import Idealize.ShloMosaic.PureOps.Ideal
import Idealize.ShloMosaic.PureOps.Ideal.Laws
import Idealize.ShloMosaic.Lib.ValueIdx
import proofs.«155972_j30958124270375_2_alg».proof.Proof.NormalizedSum
import proofs.«155972_j30958124270375_2_alg».proof.Proof.LibBlockSum

noncomputable section

open scoped BigOperators

namespace Cert.Gcn

open Idealize.ShloMosaic Idealize.ShloMosaic.ValueIdx Cert.LibRealSums

/-! ## The three float words the programs spell -/

/-- The word of 0.0. -/
abbrev zeroWord : EReal := Ideal.ofBits .f32 0x00000000#32
/-- The word of 1.0. -/
abbrev oneWord : EReal := Ideal.ofBits .f32 0x3F800000#32
/-- The word of -0.5, the exponent of the degree. -/
abbrev negHalfWord : EReal := Ideal.ofBits .f32 0xBF000000#32

theorem zeroWord_eq : zeroWord = 0 := Ideal.ofBits_zero_f32

theorem oneWord_eq : oneWord = 1 := by
  simp [Ideal.ofBits, Ideal.ieee, -EReal.coe_mul]; norm_num

theorem negHalfWord_eq : negHalfWord = ((-(1 / 2) : ℝ) : EReal) := by
  simp [Ideal.ofBits, Ideal.ieee, -EReal.coe_mul]; norm_num

variable (X : (⟨2, ![8192, 512]⟩ : Shape).Idx → EReal) (A : (⟨2, ![8192, 8192]⟩ : Shape).Idx → EReal)
  (W : (⟨2, ![512, 512]⟩ : Shape).Idx → EReal) (B : (⟨1, ![512]⟩ : Shape).Idx → EReal)

/-! ## The layer -/

/-- `d_i = (Σ_j A_ij + 1)^(-1/2)`. -/
def deg (i : Fin 8192) : EReal := Ideal.pow ((∑ j : Fin 8192, A (ix2 i j)) + 1) negHalfWord

/-- `support_ie = d_i · ((Σ_j A_ij · (d_j · X_je)) + d_i · X_ie)`. -/
def support (i : Fin 8192) (e : Fin 512) : EReal :=
  deg A i * ((∑ j : Fin 8192, A (ix2 i j) * (deg A j * X (ix2 j e))) + deg A i * X (ix2 i e))

/-- `out_io = max ((Σ_e support_ie · W_oe) + B_o) 0`. -/
def gcn (i : Fin 8192) (o : Fin 512) : EReal :=
  max ((∑ e : Fin 512, support X A i e * W (ix2 o e)) + B (ix1 o)) zeroWord

/-- When every entry of `A` is a real number so is every `d_i`: a real base to a real exponent is a real power. -/
theorem deg_real (hA : ∀ p, ∃ r : ℝ, A p = r) (i : Fin 8192) : ∃ r : ℝ, deg A i = r := by
  obtain ⟨s, hs⟩ := exists_real_sum Finset.univ (fun j : Fin 8192 => A (ix2 i j)) (fun j => hA _)
  refine ⟨Real.rpow (s + 1) (-(1 / 2)), ?_⟩
  unfold deg
  rw [hs, negHalfWord_eq, show ((s : EReal) + 1) = ((s + 1 : ℝ) : EReal) by rw [EReal.coe_add, EReal.coe_one]]
  rfl

/-! ## The arrangement that scales the features first and sums in four blocks -/

/-- `d_i` with the zero word in front of the row sum and the word of 1.0 added to it. -/
def kerDeg (i : Fin 8192) : EReal := Ideal.pow ((zeroWord + ∑ j : Fin 8192, A (ix2 i j)) + oneWord) negHalfWord

theorem kerDeg_eq (i : Fin 8192) : kerDeg A i = deg A i := by
  unfold kerDeg deg
  rw [zeroWord_eq, zero_add, oneWord_eq]

/-- Column `jj` of block `s`, of four blocks of 2048 columns (taken mod 8192, so that it is defined for every `s`). -/
def blockCol (s : ℕ) (jj : Fin 2048) : Fin 8192 := ⟨(2048 * s + jj.val) % 8192, Nat.mod_lt _ (by norm_num)⟩

/-- The four blocks' sums add up to the sum over all 8192 columns. -/
theorem sum_blockCols (f : Fin 8192 → EReal) :
    ∑ s ∈ Finset.range 4, ∑ jj : Fin 2048, f (blockCol s jj) = ∑ j : Fin 8192, f j := by
  rw [Finset.sum_range]
  refine ((sum_blockRows 4 2048 f).trans ?_).symm
  refine Finset.sum_congr rfl fun t _ => Finset.sum_congr rfl fun b _ => congrArg f (Fin.ext ?_)
  show t.val * 2048 + b.val = (2048 * t.val + b.val) % 8192
  have := t.isLt
  have := b.isLt
  omega

/-- Block `s`'s share of `Σ_j A_ij · (d_j · X_je)`, the features scaled by `kerDeg`. -/
def kerBlock (i : Fin 8192) (e : Fin 512) (s : ℕ) : EReal :=
  ∑ jj : Fin 2048, A (ix2 i (blockCol s jj)) * (kerDeg A (blockCol s jj) * X (ix2 (blockCol s jj) e))

def kerSupport (i : Fin 8192) (e : Fin 512) : EReal :=
  kerDeg A i * ((zeroWord + ∑ s ∈ Finset.range 4, kerBlock X A i e s) + kerDeg A i * X (ix2 i e))

def kerOut (i : Fin 8192) (o : Fin 512) : EReal :=
  max ((∑ e : Fin 512, kerSupport X A i e * W (ix2 o e)) + B (ix1 o)) zeroWord

theorem kerSupport_eq (i : Fin 8192) (e : Fin 512) : kerSupport X A i e = support X A i e := by
  unfold kerSupport support kerBlock
  rw [zeroWord_eq, zero_add, sum_blockCols (fun j => A (ix2 i j) * (kerDeg A j * X (ix2 j e)))]
  simp only [kerDeg_eq]

theorem kerOut_eq (i : Fin 8192) (o : Fin 512) : kerOut X A W B i o = gcn X A W B i o := by
  unfold kerOut gcn
  simp only [kerSupport_eq]

/-! ## The arrangement that normalises the matrix -/

/-- The identity matrix. -/
def eye (i j : Fin 8192) : EReal := if i = j then 1 else 0

/-- `d_i` from the row sums of `A + δ`, the zero word in front. -/
def refDeg (i : Fin 8192) : EReal := Ideal.pow (zeroWord + ∑ j : Fin 8192, (A (ix2 i j) + eye i j)) negHalfWord

theorem refDeg_eq (i : Fin 8192) : refDeg A i = deg A i := by
  unfold refDeg deg eye
  rw [zeroWord_eq, zero_add, Finset.sum_add_distrib, Finset.sum_ite_eq, if_pos (Finset.mem_univ i)]

def refSupport (i : Fin 8192) (e : Fin 512) : EReal :=
  ∑ j : Fin 8192, ((refDeg A i * (A (ix2 i j) + eye i j)) * refDeg A j) * X (ix2 j e)

def refOut (i : Fin 8192) (o : Fin 512) : EReal :=
  max ((∑ e : Fin 512, refSupport X A i e * W (ix2 o e)) + B (ix1 o)) zeroWord

theorem refSupport_eq (hA : ∀ p, ∃ r : ℝ, A p = r) (hX : ∀ p, ∃ r : ℝ, X p = r) (i : Fin 8192) (e : Fin 512) :
    refSupport X A i e = support X A i e := by
  unfold refSupport support
  simp only [refDeg_eq]
  exact normalized_sum (deg A) (fun i j => A (ix2 i j)) (fun j => X (ix2 j e)) eye (fun _ _ => rfl)
    (deg_real A hA) (fun _ _ => hA _) (fun _ => hX _) i

theorem refOut_eq (hA : ∀ p, ∃ r : ℝ, A p = r) (hX : ∀ p, ∃ r : ℝ, X p = r) (i : Fin 8192) (o : Fin 512) :
    refOut X A W B i o = gcn X A W B i o := by
  unfold refOut gcn
  simp only [refSupport_eq X A hA hX]

end Cert.Gcn

end
-- ==== Proof.FiniteInputs.lean ====
/-
  What the precondition says: every entry of the feature and adjacency arrays is a real number.

  The precondition is the conjunction, over the four arrays, of "every |x| is below the word of +∞", each computed as an
  `and` over all the one-bit comparisons of the array. A conjunction of bits that is 1 has both bits 1; an `and` over
  an array that is 1 met only 1s; and on the extended reals max(x, -x) < +∞ excludes both infinities, which leaves
  the real numbers.
-/
import proofs.«155972_j30958124270375_2_alg».proof.Pre_finite_inputs
import Idealize.ShloMosaic.PureOps.Ideal
import Idealize.ShloMosaic.Lib.ValueIdx
import Idealize.ShloMosaic.Lib.ReduceAll

noncomputable section

namespace Cert.Gcn

open Cert.Pre_finite_inputs Idealize.ShloMosaic

/-- An extended real whose absolute value compares below the word of +∞ is a real number. -/
theorem real_of_abs_lt_inf (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  have ht : x ≠ ⊤ := by
    rintro rfl
    simp [Ideal.cmp] at h
  have hb : x ≠ ⊥ := by
    rintro rfl
    simp [Ideal.cmp] at h
  exact ⟨x.toReal, (EReal.coe_toReal ht hb).symm⟩

instance subsingleton_scalar_idx : Subsingleton S_.Idx := ⟨fun a b => funext fun d => d.elim0⟩

variable [Cert.Pre_finite_inputs.Facts]

/-- The precondition of the four arrays gives: every entry of the features and of the adjacency matrix is real. -/
theorem real_entries_of_pre (X : FVec Ideal S8192x512 .f32) (A : FVec Ideal S8192x8192 .f32)
    (W : FVec Ideal S512x512 .f32) (B : FVec Ideal S512 .f32)
    (h : Cert.Pre_finite_inputs.fn (F := Ideal) X A W B = fun _ => 1#1) :
    (∀ p, ∃ r : ℝ, X p = r) ∧ (∀ p, ∃ r : ℝ, A p = r) := by
  have h1 := congrFun h ValueIdx.ix0
  dsimp only [Cert.Pre_finite_inputs.fn, Cert.Pre_finite_inputs.fn_part1] at h1
  change IntOp.andi _ _ = 1#1 at h1
  obtain ⟨h13, -⟩ := IntOp.andi_eq_one.1 h1
  change IntOp.andi _ _ = 1#1 at h13
  obtain ⟨h8, -⟩ := IntOp.andi_eq_one.1 h13
  change IntOp.andi _ _ = 1#1 at h8
  obtain ⟨h3, h7⟩ := IntOp.andi_eq_one.1 h8
  refine ⟨fun p => ?_, fun p => ?_⟩
  · exact real_of_abs_lt_inf _ (Host.reduce_andi_all _ _ _ _ _ h3 p)
  · exact real_of_abs_lt_inf _ (Host.reduce_andi_all _ _ _ _ _ h7 p)

end Cert.Gcn

end
-- ==== Proof.RefForm.lean ====
/-
  The reference program's result, entry by entry, is the arrangement of the layer that normalises the matrix.

  Read at coordinates, the program's stages are: the identity matrix as the comparison of the row number with the
  column number turned into a float; `A + δ`; its row sums from the zero word, raised to the word of -0.5; the matrix
  `(d_i · (A_ij + δ_ij)) · d_j`; its product with `X`; the product of that with the transpose of `W`, whose entry
  (e, o) is `W_oe`; the bias added along the rows; and the maximum with the zero word.
-/
import proofs.«155972_j30958124270375_2_alg».proof.Proof.Gen.ReferenceIdeal.Read
import proofs.«155972_j30958124270375_2_alg».proof.Proof.GcnSpec
import Idealize.ShloMosaic.Lib.Affine

noncomputable section

open scoped BigOperators

namespace Cert.ReferenceIdeal.RefValue

open Cert.ReferenceIdeal Cert.ReferenceIdeal.Gen Cert.ReferenceIdeal.Read Cert.Gcn
open Idealize.ShloMosaic Idealize.ShloMosaic.ValueIdx

variable (X : (⟨S8192x512, .f32⟩ : BufTy).Contents (Elt Ideal)) (A : (⟨S8192x8192, .f32⟩ : BufTy).Contents (Elt Ideal))
  (W : (⟨S512x512, .f32⟩ : BufTy).Contents (Elt Ideal)) (B : (⟨S512, .f32⟩ : BufTy).Contents (Elt Ideal))

/-- Entry (i, j) of the identity matrix as the program builds it: row number plus zero compared with the column
    number, the one-bit answer read as a float. Numbers below 8192 are equal as 32-bit words only when equal. -/
theorem eye_at (i j : Fin 8192) : val_main_v5 (F := Ideal) (ix2 i j) = eye i j := by
  rw [val_main_v5_apply, val_main_v4_apply, val_main_v3_apply, val_main_v0_apply, val_main_v1_apply, val_main_v2_apply,
    val_main_c_apply]
  show (((IntOp.cmpi .eq (IntOp.addi (BitVec.ofNat 32 i.val) 0#32) (BitVec.ofNat 32 j.val)).toNat : ℝ) : EReal) = eye i j
  unfold eye
  have hadd : IntOp.addi (BitVec.ofNat 32 i.val) 0#32 = BitVec.ofNat 32 i.val := by
    show BitVec.ofNat 32 i.val + 0#32 = _
    rw [BitVec.add_zero]
  rw [hadd]
  by_cases h : i = j
  · subst h
    rw [IntOp.cmpi_eq.2 rfl, if_pos rfl]
    simp
  · have hne : ¬ IntOp.cmpi .eq (BitVec.ofNat 32 i.val) (BitVec.ofNat 32 j.val) = 1#1 := by
      intro hc
      have hw := IntOp.cmpi_eq.1 hc
      have ht := congrArg BitVec.toNat hw
      rw [BitVec.toNat_ofNat, BitVec.toNat_ofNat] at ht
      have hi := i.isLt
      have hj := j.isLt
      exact h (Fin.ext (by omega))
    rw [eq_zero_of_ne_one hne, if_neg h]
    simp

/-- `A + δ` at (i, j). -/
theorem v6_at (i j : Fin 8192) : val_main_v6 (F := Ideal) A (ix2 i j) = A (ix2 i j) + eye i j := by
  rw [val_main_v6_apply, eye_at]
  rfl

/-- The degree at row `i`: the row sum of `A + δ` from the zero word, to the power of the word of -0.5. -/
theorem v9_at (i : Fin 8192) : val_main_v9 (F := Ideal) A (ix1 i) = refDeg A i := by
  rw [val_main_v9_apply, val_main_v7_apply, val_main_v8_apply, val_main_cst_0_apply, val_main_cst_apply]
  have hidx : ∀ k : Fin 8192, idx_main_v7 (ix1 i) k = ix2 i k := fun k =>
    funext fun a => Fin.ext (by match a with | ⟨0, _⟩ => rfl | ⟨1, _⟩ => rfl)
  simp only [hidx, v6_at]
  rfl

/-- The normalised matrix at (i, j). -/
theorem v15_at (i j : Fin 8192) :
    val_main_v15 (F := Ideal) A (ix2 i j) = (refDeg A i * (A (ix2 i j) + eye i j)) * refDeg A j := by
  rw [val_main_v15_apply, val_main_v12_apply, val_main_v11_apply, val_main_v10_apply, val_main_v14_apply, val_main_v13_apply,
    v6_at]
  have h1 : idx_main_v10 (idx_main_v11 (ix2 i j)) = ix1 i :=
    funext fun a => Fin.ext (by match a with | ⟨0, _⟩ => rfl)
  have h2 : idx_main_v13 (idx_main_v14 (ix2 i j)) = ix1 j :=
    funext fun a => Fin.ext (by match a with | ⟨0, _⟩ => rfl)
  rw [h1, h2, v9_at, v9_at]
  rfl

/-- The normalised matrix times `X` at (i, e). -/
theorem v16_at (i : Fin 8192) (e : Fin 512) : val_main_v16 (F := Ideal) X A (ix2 i e) = refSupport X A i e := by
  rw [val_main_v16_apply]
  unfold refSupport
  refine Finset.sum_congr rfl fun k _ => ?_
  have hl : lidx_main_v16 (ix2 i e) k = ix2 i k :=
    funext fun a => Fin.ext (by match a with | ⟨0, _⟩ => rfl | ⟨1, _⟩ => rfl)
  have hr : ridx_main_v16 (ix2 i e) k = ix2 k e :=
    funext fun a => Fin.ext (by match a with | ⟨0, _⟩ => rfl | ⟨1, _⟩ => rfl)
  rw [hl, hr, v15_at]

/-- The program's result at (i, o). -/
theorem v22_at (i : Fin 8192) (o : Fin 512) : val_main_v22 (F := Ideal) X A W B (ix2 i o) = refOut X A W B i o := by
  rw [val_main_v22_apply, val_main_v21_apply, val_main_v18_apply, val_main_v20_apply, val_main_v19_apply,
    val_main_call0_v0_apply, val_main_call0_cst_apply]
  unfold refOut
  have hb : idx_main_v19 (idx_main_v20 (ix2 i o)) = ix1 o :=
    funext fun a => Fin.ext (by match a with | ⟨0, _⟩ => rfl)
  have hs : ∀ k : Fin 512, val_main_v16 (F := Ideal) X A (lidx_main_v18 (ix2 i o) k) * val_main_v17 (F := Ideal) W (ridx_main_v18 (ix2 i o) k)
      = refSupport X A i k * W (ix2 o k) := by
    intro k
    have hl : lidx_main_v18 (ix2 i o) k = ix2 i k :=
      funext fun a => Fin.ext (by match a with | ⟨0, _⟩ => rfl | ⟨1, _⟩ => rfl)
    have hr : idx_main_v17 (ridx_main_v18 (ix2 i o) k) = ix2 o k :=
      funext fun a => Fin.ext (by match a with | ⟨0, _⟩ => rfl | ⟨1, _⟩ => rfl)
    rw [hl, v16_at, val_main_v17_apply, hr]
  simp only [hs, hb]
  rfl

/-- The program's result is that arrangement, as a function of the four arrays. -/
theorem result_eq : val_main_v22 (F := Ideal) X A W B = fun p => refOut X A W B (p 0) (p 1) := by
  funext p
  obtain ⟨i, o, rfl⟩ : ∃ (i : Fin 8192) (o : Fin 512), p = ix2 i o := ⟨p 0, p 1, eq_ix2 p⟩
  exact v22_at X A W B i o

end Cert.ReferenceIdeal.RefValue

end
-- ==== Proof.BodyPieces.lean ====
/-
  What one run of the body leaves behind, as the body's own arithmetic of the blocks it was given.

  The body keeps a running [1024, 512] sum in a scratch buffer. At every grid point it adds to the scratch the product
  of the point's [1024, 2048] block of the matrix with the 2048 rows of the resident scaled features that the point's
  second coordinate selects; at a first point it stores the zero block into the scratch before that, and at a last
  point it afterwards computes the output block from the scratch, the 1024 feature rows the point's first coordinate
  selects, the first column of the degrees' block, the weights and the bias.

  So after a first point the scratch holds "zero block, plus the product"; after any other point "what it held, plus
  the product"; and after a last point the output block holds the epilogue of that new scratch. Each statement below
  says this for one case, for blocks and a previous scratch that are arbitrary values.
-/
import proofs.«155972_j30958124270375_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The 2048 rows of the resident features that the point's second coordinate selects. -/
abbrev rowsK (i : grid0.Coords) (x1 : Vec F S8192x512 .bf16) : Vec F S2048x512 .bf16 :=
  View.ld x1 (Rect.unit (s := S8192x512) (k0_off1 i) S2048x512.size (k0_off1_inb i))

/-- A first point: the scratch ends at the zero block plus the product. -/
theorem scratch_first (c : Dev nD) (i : grid0.Coords) (arg2 : Memref sig .tc .vmem S1024x2048 .bf16) (harg2 : arg2.IsWhole) (arg3 : Memref sig .tc .vmem S8192x512 .bf16) (harg3 : arg3.IsWhole) (arg4 : Memref sig .tc .vmem S1024x128 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : cond0_0 i) (hc1 : ¬cond0_1 i)
    (x0 : Vec F S1024x2048 .bf16) (x1 : Vec F S8192x512 .bf16) (x2 : Vec F S1024x128 .f32) (x3 : Vec F S512x512 .f32) (x4 : Vec F S1x512 .f32) :
    sout0_A_0 c i arg2 harg2 arg3 harg3 arg4 harg4 arg5 harg5 arg6 harg6 arg7 harg7 arg8 harg8 hc0 hc1 x0 x1 x2 x3 x4 = k0_pay2 (rowsK i x1) (k0_pay1 (F := F)) x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x512) hz, View.readCov_unit_zero (S := S1024x512) _ hz]
  simp only [View.readAt_eq_ld, harg2.read_unread, harg3.read_unread, View.ld_unit_zero (S := S1024x2048) hz]
  rfl

/-- A middle point: the scratch ends at what it held plus the product. -/
theorem scratch_middle (c : Dev nD) (i : grid0.Coords) (arg2 : Memref sig .tc .vmem S1024x2048 .bf16) (harg2 : arg2.IsWhole) (arg3 : Memref sig .tc .vmem S8192x512 .bf16) (harg3 : arg3.IsWhole) (arg4 : Memref sig .tc .vmem S1024x128 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : ¬cond0_1 i)
    (x0 : Vec F S1024x2048 .bf16) (x1 : Vec F S8192x512 .bf16) (x2 : Vec F S1024x128 .f32) (x3 : Vec F S512x512 .f32) (x4 : Vec F S1x512 .f32) (xs0 : Vec F S1024x512 .f32) :
    sout0_B_0 c i arg2 harg2 arg3 harg3 arg4 harg4 arg5 harg5 arg6 harg6 arg7 harg7 arg8 harg8 hc0 hc1 x0 x1 x2 x3 x4 xs0 = k0_pay2 (rowsK i x1) xs0 x0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg8.read_unread,
    View.ld_unit_zero (S := S1024x512) hz, View.ld_unit_zero (S := S1024x2048) hz]

/-- A last point: the scratch likewise ends at what it held plus the product … -/
theorem scratch_last (c : Dev nD) (i : grid0.Coords) (arg2 : Memref sig .tc .vmem S1024x2048 .bf16) (harg2 : arg2.IsWhole) (arg3 : Memref sig .tc .vmem S8192x512 .bf16) (harg3 : arg3.IsWhole) (arg4 : Memref sig .tc .vmem S1024x128 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x2048 .bf16) (x1 : Vec F S8192x512 .bf16) (x2 : Vec F S1024x128 .f32) (x3 : Vec F S512x512 .f32) (x4 : Vec F S1x512 .f32) (xs0 : Vec F S1024x512 .f32) :
    sout0_C_0 c i arg2 harg2 arg3 harg3 arg4 harg4 arg5 harg5 arg6 harg6 arg7 harg7 arg8 harg8 hc0 hc1 x0 x1 x2 x3 x4 xs0 = k0_pay2 (rowsK i x1) xs0 x0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg8.read_unread,
    View.ld_unit_zero (S := S1024x512) hz, View.ld_unit_zero (S := S1024x2048) hz]
  rfl

/-- … and the output block ends at the epilogue of that new scratch, of the 1024 feature rows the point's first
    coordinate selects, of the first column of the degrees' block, and of the weights and the bias. -/
theorem out_last (c : Dev nD) (i : grid0.Coords) (arg2 : Memref sig .tc .vmem S1024x2048 .bf16) (harg2 : arg2.IsWhole) (arg3 : Memref sig .tc .vmem S8192x512 .bf16) (harg3 : arg3.IsWhole) (arg4 : Memref sig .tc .vmem S1024x128 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .f32) (harg8 : arg8.IsWhole) (hc0 : ¬cond0_0 i) (hc1 : cond0_1 i)
    (x0 : Vec F S1024x2048 .bf16) (x1 : Vec F S8192x512 .bf16) (x2 : Vec F S1024x128 .f32) (x3 : Vec F S512x512 .f32) (x4 : Vec F S1x512 .f32) (xs0 : Vec F S1024x512 .f32) :
    out0_C_5 c i arg2 harg2 arg3 harg3 arg4 harg4 arg5 harg5 arg6 harg6 arg7 harg7 arg8 harg8 hc0 hc1 x0 x1 x2 x3 x4 xs0
      = k0_pay3 (View.ld x1 (Rect.unit (s := S8192x512) (k0_off2 i) S1024x512.size (k0_off2_inb i hc1))) (View.ld x2 (Rect.unit (s := S1024x128) ![0, 0] S1024x1.size inb_S1024x128_S1024x1_0_0)) (k0_pay2 (rowsK i x1) xs0 x0) x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S1024x512) _ hz]
  simp only [View.readAt_eq_ld, harg2.read_unread, harg3.read_unread, harg4.read_unread, harg5.read_unread,
    harg6.read_unread, harg8.read_unread, View.ld_unit_zero (S := S1024x512) hz, View.ld_unit_zero (S := S1024x2048) hz,
    View.ld_unit_zero (S := S512x512) hz, View.ld_unit_zero (S := S1x512) hz]
  rfl

end Cert.KernelIdeal.Body

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.BodyArithmetic.lean ====
/-
  The body's three stored values, read at an entry, on the extended reals.

  The zero block is the zero word everywhere. The accumulating store's value at (r, e) is the scratch's entry plus
  Σ_k block(r, k) · rows(k, e), a plain matrix product into the zero matrix. The epilogue's value at (r, o) is

      max ((Σ_k (col(r, 0) · (scratch(r, k) + rows(r, k))) · weights(o, k)) + bias(0, o)) 0

  — the degrees' column spread over the 512 columns, the second product contracting the second axis of both
  operands (so its entry (r, o) pairs row r of the left with row o of the right), the bias row spread over the rows.
  Changes of float format are the identity here.
-/
import proofs.«155972_j30958124270375_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«155972_j30958124270375_2_alg».proof.Proof.LibPlainMatmul
import proofs.«155972_j30958124270375_2_alg».proof.Proof.LibKeepdims

noncomputable section

open scoped BigOperators

namespace Cert.KernelIdeal.Body

open Cert.KernelIdeal Cert.KernelIdeal.Gen Idealize.ShloMosaic Idealize.ShloMosaic.ValueIdx

/-- The coordinates of the operand indices of the product that contracts the second axis of both operands: at output
    index `i` and contraction index `q`, the left operand is read at (i₀, q) and the right at (i₁, q). -/
theorem rows_lhs0 (i : S1024x512.Idx) (q : dot_S1024x512_S512x512_S1024x512_1_1_0_0_n_n.contr.Idx) : (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide),
    dif_pos (show (0 : Fin S1024x512.rank) ∈ dot_S1024x512_S512x512_S1024x512_1_1_0_0_n_n.lhsNonContracting by decide)]
  rfl
theorem rows_lhs1 (i : S1024x512.Idx) (q : dot_S1024x512_S512x512_S1024x512_1_1_0_0_n_n.contr.Idx) : (dot_S1024x512_S512x512_S1024x512_1_1_0_0_n_n.lhsIdx i q 1).val = (q ⟨0, by decide⟩).val :=
  dot_S1024x512_S512x512_S1024x512_1_1_0_0_n_n.lhsIdx_val_of_single rfl i q
theorem rows_rhs0 (i : S1024x512.Idx) (q : dot_S1024x512_S512x512_S1024x512_1_1_0_0_n_n.contr.Idx) : (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide),
    dif_pos (show (0 : Fin S512x512.rank) ∈ dot_S1024x512_S512x512_S1024x512_1_1_0_0_n_n.rhsNonContracting by decide)]
  rfl
theorem rows_rhs1 (i : S1024x512.Idx) (q : dot_S1024x512_S512x512_S1024x512_1_1_0_0_n_n.contr.Idx) : (dot_S1024x512_S512x512_S1024x512_1_1_0_0_n_n.rhsIdx i q 1).val = (q ⟨0, by decide⟩).val :=
  dot_S1024x512_S512x512_S1024x512_1_1_0_0_n_n.rhsIdx_val_of_single rfl i q

/-- A [1024, 512] × [512, 512] product contracting the second axis of both operands, into the zero matrix: entry
    (r, o) is Σ_k lhs(r, k) · rhs(o, k). -/
theorem matmul_rows_zero_apply (lhs : FVec Ideal S1024x512 .bf16) (rhs : FVec Ideal S512x512 .bf16) (r : Fin 1024) (o : Fin 512) :
    FloatOps.matmul dot_S1024x512_S512x512_S1024x512_1_1_0_0_n_n none lhs rhs (constant S1024x512 .f32 0x00000000#32) (ix2 r o)
      = ∑ k : Fin 512, lhs (ix2 r k) * rhs (ix2 o k) := by
  rw [Ideal.matmul_constant_zero_apply, ← Equiv.sum_comp (contrEquiv1 dot_S1024x512_S512x512_S1024x512_1_1_0_0_n_n 512 rfl rfl).symm]
  refine Finset.sum_congr rfl fun k _ => ?_
  have hk := contrEquiv1_symm_val dot_S1024x512_S512x512_S1024x512_1_1_0_0_n_n 512 rfl rfl k
  have el : dot_S1024x512_S512x512_S1024x512_1_1_0_0_n_n.lhsIdx (ix2 r o) ((contrEquiv1 dot_S1024x512_S512x512_S1024x512_1_1_0_0_n_n 512 rfl rfl).symm k) = ix2 r k :=
    funext fun a => Fin.ext (by
      match a with
      | ⟨0, _⟩ => exact rows_lhs0 _ _
      | ⟨1, _⟩ => exact (rows_lhs1 _ _).trans hk)
  have er : dot_S1024x512_S512x512_S1024x512_1_1_0_0_n_n.rhsIdx (ix2 r o) ((contrEquiv1 dot_S1024x512_S512x512_S1024x512_1_1_0_0_n_n 512 rfl rfl).symm k) = ix2 o k :=
    funext fun a => Fin.ext (by
      match a with
      | ⟨0, _⟩ => exact rows_rhs0 _ _
      | ⟨1, _⟩ => exact (rows_rhs1 _ _).trans hk)
  rw [el, er]

/-- The zero block at any entry is the zero word. -/
theorem pay1_apply (j : S1024x512.Idx) : k0_pay1 (F := Ideal) j = Ideal.ofBits .f32 0x00000000#32 := by
  unfold k0_pay1
  simp only [shapeCast_self]
  rfl

/-- The accumulating store's value at (r, e): the scratch's entry plus the product's. -/
theorem pay2_apply (v6 : Vec Ideal S2048x512 .bf16) (v8 : Vec Ideal S1024x512 .f32) (v9 : Vec Ideal S1024x2048 .bf16)
    (r : Fin 1024) (e : Fin 512) :
    k0_pay2 (F := Ideal) v6 v8 v9 (ix2 r e) = v8 (ix2 r e) + ∑ k : Fin 2048, v9 (ix2 r k) * v6 (ix2 k e) := by
  unfold k0_pay2
  simp only [shapeCast_self]
  exact congrArg (fun t => v8 (ix2 r e) + t)
    (matmul_plain_zero_apply dot_S1024x2048_S2048x512_S1024x512_1_0_0_1_n_n rfl none v9 v6 r e)

/-- The epilogue's value at (r, o). -/
theorem pay3_apply (v22 : Vec Ideal S1024x512 .bf16) (v25 : Vec Ideal S1024x1 .f32) (v29 : Vec Ideal S1024x512 .f32)
    (v33 : Vec Ideal S512x512 .f32) (v36 : Vec Ideal S1x512 .f32) (r : Fin 1024) (o : Fin 512) :
    k0_pay3 (F := Ideal) v22 v25 v29 v33 v36 (ix2 r o)
      = max ((∑ k : Fin 512, (v25 (ix2 r (0 : Fin 1)) * (v29 (ix2 r k) + v22 (ix2 r k))) * v33 (ix2 o k))
          + v36 (ix2 (0 : Fin 1) o)) (Ideal.ofBits .f32 0x00000000#32) := by
  unfold k0_pay3
  simp only [shapeCast_self]
  refine (congrArg₂ (fun a b => max (a + b) (Ideal.ofBits .f32 0x00000000#32))
    (matmul_rows_zero_apply _ _ r o) (broadcastTo_1b_ab_apply v36 broadcasts_S1x512_S1024x512 r o)).trans ?_
  refine congrArg (fun t => max (t + v36 (ix2 (0 : Fin 1) o)) (Ideal.ofBits .f32 0x00000000#32))
    (Finset.sum_congr rfl fun k _ => ?_)
  exact congrArg (fun t => (t * (v29 (ix2 r k) + v22 (ix2 r k))) * v33 (ix2 o k))
    (Cert.LibKeepdims.broadcastTo_a1_ac_apply v25 broadcasts_S1024x1_S1024x512 r k)

end Cert.KernelIdeal.Body

end
-- ==== Proof.Staged.lean ====
/-
  The arrays the five input windows stage, entry by entry, as functions of the four argument arrays.

  Before the region the program computes the degrees `d_i` — the row sums of the adjacency matrix from the zero word,
  plus the word of 1.0, to the power of the word of -0.5 — and from them: the adjacency matrix itself (a change of float
  format, the identity here); the features scaled row by row, `d_j · X_je`; the degrees repeated along 128 columns;
  and the bias as a one-row matrix. The weights are staged as they are.
-/
import proofs.«155972_j30958124270375_2_alg».proof.Proof.Gen.KernelIdeal.Frame
import proofs.«155972_j30958124270375_2_alg».proof.Proof.GcnSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.Staged

open Cert.KernelIdeal Cert.KernelIdeal.Gen Cert.Gcn
open Idealize.ShloMosaic Idealize.ShloMosaic.ValueIdx Idealize.ShloMosaic.TcCoe Idealize.SL.Sem Idealize.ShloMosaic.StableHlo

/-- The degrees as the program computes them from the adjacency matrix. -/
def hostDeg (A : (⟨S8192x8192, .f32⟩ : BufTy).Contents (Elt Ideal)) : (⟨S8192, .f32⟩ : BufTy).Contents (Elt Ideal) :=
  Host.powf (F := Ideal)
    (addf (Host.reduceAdd (F := Ideal) A (constant (F := Ideal) S_ .f32 0x00000000#32) reducesTo_S8192x8192_S8192_d1 h_S_)
      (broadcastInDim S8192 ![] bcast_S_S8192 (constant (F := Ideal) S_ .f32 0x3F800000#32)))
    (broadcastInDim S8192 ![] bcast_S_S8192 (constant (F := Ideal) S_ .f32 0xBF000000#32))

/-- A scalar spread over a vector reads the scalar everywhere. -/
theorem splat_apply (y : (⟨S_, .f32⟩ : BufTy).Contents (Elt Ideal)) (i : S8192.Idx) :
    broadcastInDim S8192 ![] bcast_S_S8192 y i = y (fun a => a.elim0) :=
  broadcastInDim_apply _ bcast_S_S8192 y i (fun a => a.elim0) (fun a => a.elim0)

/-- The row sums of the adjacency matrix from the zero word. -/
theorem rowSum_apply (A : (⟨S8192x8192, .f32⟩ : BufTy).Contents (Elt Ideal)) (i : Fin 8192) :
    Host.reduceAdd (F := Ideal) A (constant (F := Ideal) S_ .f32 0x00000000#32) reducesTo_S8192x8192_S8192_d1 h_S_ (ix1 i)
      = zeroWord + ∑ j : Fin 8192, A (ix2 i j) := by
  simp only [Host.reduceAdd, Ideal.hostReduceAdd_def]
  rw [Ideal.hostReduceAdd_single reducesTo_S8192x8192_S8192_d1 (by decide)]
  refine congrArg (zeroWord + ·) (Finset.sum_congr rfl fun k _ => ?_)
  exact congrArg A (funext fun a => Fin.ext (by match a with | ⟨0, _⟩ => rfl | ⟨1, _⟩ => rfl))

/-- The program's degrees are `kerDeg`. -/
theorem hostDeg_apply (A : (⟨S8192x8192, .f32⟩ : BufTy).Contents (Elt Ideal)) (i : Fin 8192) :
    hostDeg A (ix1 i) = kerDeg A i := by
  unfold hostDeg kerDeg
  show Ideal.pow (Host.reduceAdd (F := Ideal) A (constant (F := Ideal) S_ .f32 0x00000000#32) reducesTo_S8192x8192_S8192_d1 h_S_ (ix1 i)
      + broadcastInDim S8192 ![] bcast_S_S8192 (constant (F := Ideal) S_ .f32 0x3F800000#32) (ix1 i))
    (broadcastInDim S8192 ![] bcast_S_S8192 (constant (F := Ideal) S_ .f32 0xBF000000#32) (ix1 i)) = _
  rw [rowSum_apply, splat_apply, splat_apply]
  rfl

/-- A vector made a column and spread over 512 columns reads, at (i, e), the vector at i. -/
theorem spread512_apply (d : (⟨S8192, .f32⟩ : BufTy).Contents (Elt Ideal)) (i : Fin 8192) (e : Fin 512) :
    broadcastInDim S8192x512 ![0, 1] bcast_S8192x1_S8192x512_0_1 (broadcastInDim S8192x1 ![0] bcast_S8192_S8192x1_0 d) (ix2 i e)
      = d (ix1 i) := by
  rw [broadcastInDim_apply _ bcast_S8192x1_S8192x512_0_1 _ (ix2 i e) (ix2 i (0 : Fin 1)) (fun a => match a with
      | ⟨0, _⟩ => by show i.val = if (8192 : Nat) = 1 then 0 else i.val; rw [if_neg (by decide)]
      | ⟨1, _⟩ => by show 0 = if (1 : Nat) = 1 then 0 else e.val; rw [if_pos rfl]),
    broadcastInDim_apply _ bcast_S8192_S8192x1_0 d (ix2 i (0 : Fin 1)) (ix1 i) (fun a => match a with
      | ⟨0, _⟩ => by show i.val = if (8192 : Nat) = 1 then 0 else i.val; rw [if_neg (by decide)])]

/-- The same over 128 columns. -/
theorem spread128_apply (d : (⟨S8192, .f32⟩ : BufTy).Contents (Elt Ideal)) (i : Fin 8192) (l : Fin 128) :
    broadcastInDim S8192x128 ![0, 1] bcast_S8192x1_S8192x128_0_1 (broadcastInDim S8192x1 ![0] bcast_S8192_S8192x1_0 d) (ix2 i l)
      = d (ix1 i) := by
  rw [broadcastInDim_apply _ bcast_S8192x1_S8192x128_0_1 _ (ix2 i l) (ix2 i (0 : Fin 1)) (fun a => match a with
      | ⟨0, _⟩ => by show i.val = if (8192 : Nat) = 1 then 0 else i.val; rw [if_neg (by decide)]
      | ⟨1, _⟩ => by show 0 = if (1 : Nat) = 1 then 0 else l.val; rw [if_pos rfl]),
    broadcastInDim_apply _ bcast_S8192_S8192x1_0 d (ix2 i (0 : Fin 1)) (ix1 i) (fun a => match a with
      | ⟨0, _⟩ => by show i.val = if (8192 : Nat) = 1 then 0 else i.val; rw [if_neg (by decide)])]

variable (m : (ℓ : Loc nD τ sig) → Buf (Elt Ideal) ℓ) (c : Dev nD)

/-- The four argument arrays as the run finds them. -/
abbrev argX : (⟨S8192x512, .f32⟩ : BufTy).Contents (Elt Ideal) := m ((c : Thread nD τ).loc main_arg0)
abbrev argA : (⟨S8192x8192, .f32⟩ : BufTy).Contents (Elt Ideal) := m ((c : Thread nD τ).loc main_arg1)
abbrev argW : (⟨S512x512, .f32⟩ : BufTy).Contents (Elt Ideal) := m ((c : Thread nD τ).loc main_arg2)
abbrev argB : (⟨S512, .f32⟩ : BufTy).Contents (Elt Ideal) := m ((c : Thread nD τ).loc main_arg3)

/-- Window 0's array: the adjacency matrix. -/
theorem adj_apply (p : S8192x8192.Idx) : V m c main_v5 p = argA m c p := by
  have e : (V m c main_v5 : S8192x8192.Idx → EReal) = (truncf .bf16 (argA m c) bitsLt_bf16_f32 : FVec Ideal S8192x8192 .bf16) := by
    dsimp only [Gen.V, Gen.hostOps0]; after_results
  rw [e]
  rfl

/-- Window 1's array: the features scaled by the degrees, row by row. -/
theorem scaled_apply (j : Fin 8192) (e : Fin 512) :
    V m c main_v9 (ix2 j e) = kerDeg (argA m c) j * argX m c (ix2 j e) := by
  have h : (V m c main_v9 : S8192x512.Idx → EReal)
      = (truncf .bf16 (mulf (broadcastInDim S8192x512 ![0, 1] bcast_S8192x1_S8192x512_0_1
          (broadcastInDim S8192x1 ![0] bcast_S8192_S8192x1_0 (hostDeg (argA m c)))) (argX m c)) bitsLt_bf16_f32
            : FVec Ideal S8192x512 .bf16) := by
    dsimp only [Gen.V, Gen.hostOps0]; after_results; rfl
  rw [h]
  show broadcastInDim S8192x512 ![0, 1] bcast_S8192x1_S8192x512_0_1
      (broadcastInDim S8192x1 ![0] bcast_S8192_S8192x1_0 (hostDeg (argA m c))) (ix2 j e) * argX m c (ix2 j e) = _
  rw [spread512_apply, hostDeg_apply]

/-- Window 2's array: the degrees along 128 columns. -/
theorem degCols_apply (i : Fin 8192) (l : Fin 128) : V m c main_v11 (ix2 i l) = kerDeg (argA m c) i := by
  have h : (V m c main_v11 : S8192x128.Idx → EReal)
      = broadcastInDim S8192x128 ![0, 1] bcast_S8192x1_S8192x128_0_1
          (broadcastInDim S8192x1 ![0] bcast_S8192_S8192x1_0 (hostDeg (argA m c))) := by
    dsimp only [Gen.V, Gen.hostOps0]; after_results; rfl
  rw [h, spread128_apply, hostDeg_apply]

/-- Window 4's array: the bias as a one-row matrix. -/
theorem biasRow_apply (u : Fin 1) (o : Fin 512) : V m c main_v12 (ix2 u o) = argB m c (ix1 o) := by
  have h : (V m c main_v12 : S1x512.Idx → EReal) = shapeCast S1x512 (argB m c) shapeCasts_S512_S1x512 := by
    dsimp only [Gen.V, Gen.hostOps0]; after_results; rfl
  rw [h]
  exact shapeCast_a_1a_apply (argB m c) shapeCasts_S512_S1x512 u o

/-- Window 3's array: the weights. -/
theorem weights_apply (p : S512x512.Idx) : V m c main_arg2 p = argW m c p := congrFun (V_main_arg2 m c) p

end Cert.KernelIdeal.Staged

end
-- ==== Proof.LibSliceRead.lean ====
/-
  A unit-stride slice of a matrix, read at an entry.

  A load of a [p, q] window of an [a, b] matrix through consecutive rows from `off 0` and consecutive columns from
  `off 1` — a static sub-block, or a window whose first row is computed from a grid coordinate — reads, at (r, e),
  the matrix at (off 0 + r, off 1 + e). The target entry is named by the caller together with the two equations
  that say so, so that the offsets may be any expressions.
-/
import Idealize.ShloMosaic.Lib.ValueIdx
import Idealize.ShloMosaic.Lib.Pipeline.Value

noncomputable section

namespace Cert.LibSliceRead

open Idealize.ShloMosaic Idealize.ShloMosaic.ValueIdx

/-- A unit-stride slice of a matrix read at (r, e) is the matrix at (off₀ + r, off₁ + e). -/
theorem ld_unit_ix2 {a b p q : ℕ} {Val : EltTy → Type} {el : EltTy} (x : (⟨2, ![a, b]⟩ : Shape).Idx → Val el) (off : Fin 2 → Nat)
    (inb : ∀ ax, off ax + (![p, q] : Fin 2 → Nat) ax ≤ (⟨2, ![a, b]⟩ : Shape).size ax) (r : Fin p) (e : Fin q)
    (i : Fin a) (j : Fin b) (hi : i.val = off 0 + r.val) (hj : j.val = off 1 + e.val) :
    View.ld x (Rect.unit (s := ⟨2, ![a, b]⟩) off ![p, q] inb) (ix2 r e) = x (ix2 i j) := by
  show x ((Rect.unit (s := ⟨2, ![a, b]⟩) off ![p, q] inb).emb (ix2 r e)) = _
  refine congrArg x (funext fun ax => Fin.ext ?_)
  match ax with
  | ⟨0, _⟩ => show off 0 + 1 * r.val = i.val; omega
  | ⟨1, _⟩ => show off 1 + 1 * e.val = j.val; omega

end Cert.LibSliceRead

end
-- ==== Proof.LayerValue.lean ====
/-
  From the blocks the grid points write back to the whole result array.

  The grid has 32 points, numbered t = 4·q + s with q the row block (1024 rows of the result) and s the column block
  (2048 columns of the adjacency matrix). At point t the body sees: the adjacency block (q, s); the whole scaled
  feature matrix, of which it reads rows 2048·s … and, at s = 3, rows 1024·q …; the degrees of row block q along
  128 columns; the weights; the bias row. Reading each of these at an entry gives it as a function of the four
  argument arrays, so that one point's product is block s's share `kerBlock` of the contraction over all 8192 columns,
  the scratch after the points 4·q … 4·q + s is the zero word plus the first s + 1 shares, and the output block the
  last point of a row block writes back is the layer's kernel-side arrangement `kerOut` on those 1024 rows. The eight
  written-back blocks tile the result array.
-/
import proofs.«155972_j30958124270375_2_alg».proof.Proof.Gen.KernelIdeal.Value
import proofs.«155972_j30958124270375_2_alg».proof.Proof.BodyPieces
import proofs.«155972_j30958124270375_2_alg».proof.Proof.BodyArithmetic
import proofs.«155972_j30958124270375_2_alg».proof.Proof.Staged
import proofs.«155972_j30958124270375_2_alg».proof.Proof.GcnSpec
import proofs.«155972_j30958124270375_2_alg».proof.Proof.LibSliceRead
import Idealize.ShloMosaic.Lib.Pipeline.Value

set_option maxRecDepth 16384

noncomputable section

open scoped BigOperators

namespace Cert.KernelIdeal.Layer

open Cert.KernelIdeal Cert.KernelIdeal.Gen Cert.KernelIdeal.Body Cert.KernelIdeal.Staged Cert.Gcn
open Idealize.ShloMosaic Idealize.ShloMosaic.ValueIdx Idealize.ShloMosaic.TcCoe Idealize.SL.Sem
open Idealize.ShloMosaic.Pipeline (Dat)
open Cert.LibSliceRead

/-- Row `r` of row block `q`, of eight blocks of 1024 rows (taken mod 8192, so that it is defined for every `q`). -/
def blkRow (q : ℕ) (r : Fin 1024) : Fin 8192 := ⟨(1024 * q + r.val) % 8192, Nat.mod_lt _ (by norm_num)⟩

/-- Where each window's block sits at point t = 4·q + s, and the point's two coordinates: decided over the 32 points. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0
    ∧ ((grid0.coords t) 0).val = t.val / 4 ∧ ((grid0.coords t) 1).val = t.val % 4 :=
  (by decide +kernel : ∀ t : Fin grid0.N, _)

variable (m : (ℓ : Loc nD τ sig) → Buf (Elt Ideal) ℓ) (ρ : Dev nD → PrngReg)

/-! ## The input blocks at an entry -/

/-- The adjacency block at point t: rows of row block t / 4, columns of column block t % 4. -/
theorem adjBlock_apply (c : Dev nD) (t : Fin cfg0.N) (r : Fin 1024) (k : Fin 2048) :
    (iblk m c 0 t : Vec Ideal S1024x2048 .bf16) (ix2 r k)
      = argA m c (ix2 (blkRow (t.val / 4) r) (blockCol (t.val % 4) k)) := by
  obtain ⟨e0, e1, -⟩ := idx_facts t
  have hN : t.val < 32 := lt_of_lt_of_eq t.isLt N_0
  show V m c main_v5 (((cfg0.win 0).blk t).view.emb (ix2 r k)) = _
  rw [adj_apply]
  refine congrArg (argA m c) (funext fun a => Fin.ext ?_)
  match a with
  | ⟨0, _⟩ =>
    show win0_0.index t (0 : Fin 2) * 1024 + 1 * r.val = (1024 * (t.val / 4) + r.val) % 8192
    have := r.isLt; omega
  | ⟨1, _⟩ =>
    show win0_0.index t (1 : Fin 2) * 2048 + 1 * k.val = (2048 * (t.val % 4) + k.val) % 8192
    have := k.isLt; omega

/-- The resident block is the whole scaled feature matrix, at every point. -/
theorem scaledBlock_apply (c : Dev nD) (t : Fin cfg0.N) (j : Fin 8192) (e : Fin 512) :
    (iblk m c 1 t : Vec Ideal S8192x512 .bf16) (ix2 j e) = kerDeg (argA m c) j * argX m c (ix2 j e) := by
  obtain ⟨-, -, e0, e1, -⟩ := idx_facts t
  show V m c main_v9 (((cfg0.win 1).blk t).view.emb (ix2 j e)) = _
  have h : ((cfg0.win 1).blk t).view.emb (ix2 j e) = ix2 j e := by
    funext a; apply Fin.ext
    match a with
    | ⟨0, _⟩ => show win0_1.index t (0 : Fin 2) * 8192 + 1 * j.val = j.val; omega
    | ⟨1, _⟩ => show win0_1.index t (1 : Fin 2) * 512 + 1 * e.val = e.val; omega
  rw [h, scaled_apply]

/-- The degrees' block at point t: the degrees of row block t / 4, along every one of its 128 columns. -/
theorem degBlock_apply (c : Dev nD) (t : Fin cfg0.N) (r : Fin 1024) (l : Fin 128) :
    (iblk m c 2 t : Vec Ideal S1024x128 .f32) (ix2 r l) = kerDeg (argA m c) (blkRow (t.val / 4) r) := by
  obtain ⟨-, -, -, -, e0, e1, -⟩ := idx_facts t
  have hN : t.val < 32 := lt_of_lt_of_eq t.isLt N_0
  show V m c main_v11 (((cfg0.win 2).blk t).view.emb (ix2 r l)) = _
  have h : ((cfg0.win 2).blk t).view.emb (ix2 r l) = ix2 (blkRow (t.val / 4) r) l := by
    funext a; apply Fin.ext
    match a with
    | ⟨0, _⟩ =>
      show win0_2.index t (0 : Fin 2) * 1024 + 1 * r.val = (1024 * (t.val / 4) + r.val) % 8192
      have := r.isLt; omega
    | ⟨1, _⟩ => show win0_2.index t (1 : Fin 2) * 128 + 1 * l.val = l.val; omega
  rw [h, degCols_apply]

/-- The weights' block is the weight matrix, at every point. -/
theorem weightBlock_apply (c : Dev nD) (t : Fin cfg0.N) (o k : Fin 512) :
    (iblk m c 3 t : Vec Ideal S512x512 .f32) (ix2 o k) = argW m c (ix2 o k) := by
  obtain ⟨-, -, -, -, -, -, e0, e1, -⟩ := idx_facts t
  show V m c main_arg2 (((cfg0.win 3).blk t).view.emb (ix2 o k)) = _
  have h : ((cfg0.win 3).blk t).view.emb (ix2 o k) = ix2 o k := by
    funext a; apply Fin.ext
    match a with
    | ⟨0, _⟩ => show win0_3.index t (0 : Fin 2) * 512 + 1 * o.val = o.val; omega
    | ⟨1, _⟩ => show win0_3.index t (1 : Fin 2) * 512 + 1 * k.val = k.val; omega
  rw [h, weights_apply]

/-- The bias block is the bias row, at every point. -/
theorem biasBlock_apply (c : Dev nD) (t : Fin cfg0.N) (u : Fin 1) (o : Fin 512) :
    (iblk m c 4 t : Vec Ideal S1x512 .f32) (ix2 u o) = argB m c (ix1 o) := by
  obtain ⟨-, -, -, -, -, -, -, -, e0, e1, -⟩ := idx_facts t
  show V m c main_v12 (((cfg0.win 4).blk t).view.emb (ix2 u o)) = _
  have h : ((cfg0.win 4).blk t).view.emb (ix2 u o) = ix2 u o := by
    funext a; apply Fin.ext
    match a with
    | ⟨0, _⟩ => show win0_4.index t (0 : Fin 2) * 1 + 1 * u.val = u.val; omega
    | ⟨1, _⟩ => show win0_4.index t (1 : Fin 2) * 512 + 1 * o.val = o.val; omega
  rw [h, biasRow_apply]

/-! ## One point's product, and the epilogue, at an entry -/

/-- The accumulating store's value at (r, e), for an adjacency block that is block (q, s) of `A` and a resident
    matrix that is the scaled features, read through the rows 2048·s …: what the scratch held plus block s's share. -/
theorem product_entry (X : (⟨2, ![8192, 512]⟩ : Shape).Idx → EReal) (A : (⟨2, ![8192, 8192]⟩ : Shape).Idx → EReal)
    (x0 : Vec Ideal S1024x2048 .bf16) (x1 : Vec Ideal S8192x512 .bf16) (i : grid0.Coords) (q s : ℕ) (hs : s < 4)
    (hoff : k0_off1 i = ![2048 * s, 0])
    (hx0 : ∀ r k, x0 (ix2 r k) = A (ix2 (blkRow q r) (blockCol s k)))
    (hx1 : ∀ j e, x1 (ix2 j e) = kerDeg A j * X (ix2 j e))
    (acc : Vec Ideal S1024x512 .f32) (r : Fin 1024) (e : Fin 512) :
    k0_pay2 (F := Ideal) (rowsK i x1) acc x0 (ix2 r e) = acc (ix2 r e) + kerBlock X A (blkRow q r) e s := by
  have h0 : k0_off1 i 0 = 2048 * s := by rw [hoff]; rfl
  have h1 : k0_off1 i 1 = 0 := by rw [hoff]; rfl
  rw [pay2_apply]
  refine congrArg (acc (ix2 r e) + ·) ?_
  unfold kerBlock
  refine Finset.sum_congr rfl fun k _ => ?_
  rw [hx0]
  refine congrArg (A (ix2 (blkRow q r) (blockCol s k)) * ·) ?_
  have hk := k.isLt
  exact (ld_unit_ix2 x1 (k0_off1 i) (k0_off1_inb i) k e (blockCol s k) e
    (by rw [h0]; show (2048 * s + k.val) % 8192 = 2048 * s + k.val; omega) (by rw [h1]; omega)).trans (hx1 _ _)

/-- The epilogue's value at (r, o), for blocks that are what row `i` of the layer needs: the kernel-side
    arrangement of the layer at (i, o). -/
theorem epilogue_entry (X : (⟨2, ![8192, 512]⟩ : Shape).Idx → EReal) (A : (⟨2, ![8192, 8192]⟩ : Shape).Idx → EReal)
    (W : (⟨2, ![512, 512]⟩ : Shape).Idx → EReal) (B : (⟨1, ![512]⟩ : Shape).Idx → EReal) (i : Fin 8192)
    (v22 : Vec Ideal S1024x512 .bf16) (v25 : Vec Ideal S1024x1 .f32) (v29 : Vec Ideal S1024x512 .f32)
    (v33 : Vec Ideal S512x512 .f32) (v36 : Vec Ideal S1x512 .f32) (r : Fin 1024) (o : Fin 512)
    (h22 : ∀ k, v22 (ix2 r k) = kerDeg A i * X (ix2 i k))
    (h25 : v25 (ix2 r (0 : Fin 1)) = kerDeg A i)
    (h29 : ∀ k, v29 (ix2 r k) = zeroWord + ∑ s ∈ Finset.range 4, kerBlock X A i k s)
    (h33 : ∀ k, v33 (ix2 o k) = W (ix2 o k))
    (h36 : v36 (ix2 (0 : Fin 1) o) = B (ix1 o)) :
    k0_pay3 (F := Ideal) v22 v25 v29 v33 v36 (ix2 r o) = kerOut X A W B i o := by
  rw [pay3_apply, h25, h36]
  unfold kerOut kerSupport
  simp only [h22, h29, h33]

/-! ## The scratch after each point -/

/-- Point n's share of the contraction, as a [1024, 512] block: block n % 4's share, on the rows of row block n / 4. -/
def addend (c : Dev nD) (n : ℕ) : S1024x512.Idx → EReal := fun p =>
  kerBlock (argX m c) (argA m c) (blkRow (n / 4) (p 0)) (p 1) (n % 4)

/-- The accumulating store at point t, whatever the scratch held: that, plus t's share. -/
theorem step_entry (c : Dev nD) (t : Fin cfg0.N) (acc : Vec Ideal S1024x512 .f32) (p : S1024x512.Idx) :
    k0_pay2 (F := Ideal) (rowsK (grid0.coords t) (iblk m c 1 t)) acc (iblk m c 0 t) p = acc p + addend m c t.val p := by
  obtain ⟨r, e, rfl⟩ : ∃ (r : Fin 1024) (e : Fin 512), p = ix2 r e := ⟨p 0, p 1, eq_ix2 p⟩
  obtain ⟨-, -, -, -, -, -, -, -, -, -, -, -, hc0, hc1⟩ := idx_facts t
  exact product_entry (argX m c) (argA m c) (iblk m c 0 t) (iblk m c 1 t) (grid0.coords t) (t.val / 4) (t.val % 4)
    (Nat.mod_lt _ (by norm_num)) (by rw [k0_off1_eq, hc1]) (adjBlock_apply m c t) (scaledBlock_apply m c t) acc r e

/-- The scratch after point t = 4·q + s holds the zero word plus the shares of the points 4·q … 4·q + s: the first
    point of a row block stores the zero block and adds its share, every later one adds its own. -/
theorem scratch_after (c : Dev nD) (t : Fin cfg0.N) (p : S1024x512.Idx) :
    (outsAt0 m c t.val t.isLt).2 p
      = zeroWord + ∑ s ∈ Finset.range (t.val % 4 + 1), addend m c (4 * (t.val / 4) + s) p := by
  have hN : cfg0.N = 32 := N_0
  rw [Value.soutsAt0_0_eq m c t]
  refine Pipeline.accAt_add_apply (ι := S1024x512.Idx) (β := EReal) _ _ (fun _ => zeroWord) (addend m c)
    (4 * (t.val / 4)) 3 ?_ ?_ (t.val % 4) (by omega) _ p
  · intro h i
    have h0 : (4 * (t.val / 4)) % 4 = 0 := Nat.mul_mod_right 4 _
    have h1 : ¬ (4 * (t.val / 4)) % 4 = 3 := by omega
    show Value.scAt0_0 m c (4 * (t.val / 4)) h _ i = _
    unfold Value.scAt0_0
    rw [dif_pos h0, dif_neg h1]
    refine (congrFun (scratch_first (F := Ideal) c (grid0.coords (⟨4 * (t.val / 4), h⟩ : Fin cfg0.N)) (ms0_0 (⟨4 * (t.val / 4), h⟩ : Fin cfg0.N)) (hs0_0 (⟨4 * (t.val / 4), h⟩ : Fin cfg0.N)) (ms0_1 (⟨4 * (t.val / 4), h⟩ : Fin cfg0.N)) (hs0_1 (⟨4 * (t.val / 4), h⟩ : Fin cfg0.N)) (ms0_2 (⟨4 * (t.val / 4), h⟩ : Fin cfg0.N)) (hs0_2 (⟨4 * (t.val / 4), h⟩ : Fin cfg0.N)) (ms0_3 (⟨4 * (t.val / 4), h⟩ : Fin cfg0.N)) (hs0_3 (⟨4 * (t.val / 4), h⟩ : Fin cfg0.N)) (ms0_4 (⟨4 * (t.val / 4), h⟩ : Fin cfg0.N)) (hs0_4 (⟨4 * (t.val / 4), h⟩ : Fin cfg0.N)) (ms0_5 (⟨4 * (t.val / 4), h⟩ : Fin cfg0.N)) (hs0_5 (⟨4 * (t.val / 4), h⟩ : Fin cfg0.N)) scM0_0 (Memref.isWhole_whole _)
      ((hcond0_0 (⟨4 * (t.val / 4), h⟩ : Fin cfg0.N)).mpr h0) (fun h' => h1 ((hcond0_1 (⟨4 * (t.val / 4), h⟩ : Fin cfg0.N)).mp h')) (iblk m c 0 (⟨4 * (t.val / 4), h⟩ : Fin cfg0.N)) (iblk m c 1 (⟨4 * (t.val / 4), h⟩ : Fin cfg0.N)) (iblk m c 2 (⟨4 * (t.val / 4), h⟩ : Fin cfg0.N)) (iblk m c 3 (⟨4 * (t.val / 4), h⟩ : Fin cfg0.N)) (iblk m c 4 (⟨4 * (t.val / 4), h⟩ : Fin cfg0.N))) i).trans ?_
    refine (step_entry m c (⟨4 * (t.val / 4), h⟩ : Fin cfg0.N) (k0_pay1 (F := Ideal)) i).trans ?_
    rw [pay1_apply]
  · intro n h acc i hlt hle
    have h0 : ¬ n % 4 = 0 := by omega
    show Value.scAt0_0 m c n h acc i = _
    unfold Value.scAt0_0
    rw [dif_neg h0]
    by_cases h1 : n % 4 = 3
    · rw [dif_pos h1]
      exact (congrFun (scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _)
        (fun h' => h0 ((hcond0_0 (⟨n, h⟩ : Fin cfg0.N)).mp h')) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) i).trans
        (step_entry m c (⟨n, h⟩ : Fin cfg0.N) acc i)
    · rw [dif_neg h1]
      exact (congrFun (scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _)
        (fun h' => h0 ((hcond0_0 (⟨n, h⟩ : Fin cfg0.N)).mp h')) (fun h' => h1 ((hcond0_1 (⟨n, h⟩ : Fin cfg0.N)).mp h')) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) i).trans
        (step_entry m c (⟨n, h⟩ : Fin cfg0.N) acc i)

/-! ## What a last point writes back, and the whole array -/

/-- The result array the run leaves: the kernel-side arrangement of the layer, of the four argument arrays. -/
abbrev layer (c : Dev nD) : Buf (Elt Ideal) ((c : Thread nD τ).loc main_v13) :=
  fun p => kerOut (argX m c) (argA m c) (argW m c) (argB m c) (p 0) (p 1)

/-- A point that writes its output block back (a last point, t % 4 = 3) writes block t / 4 of `layer`. -/
theorem flushed_eq (c : Dev nD) (t : Fin cfg0.N) (hf : (cfg0.win 5).flush t = true) :
    (dats m 0 c).flushed 5 t = ((cfg0.win 5).blk t).view.read (Elt Ideal) (layer m c) := by
  have h3 : t.val % 4 = 3 := (flush0_5 t).mp hf
  have h0 : ¬ t.val % 4 = 0 := by omega
  have hN : t.val < 32 := lt_of_lt_of_eq t.isLt N_0
  have hlt : t.val - 1 < cfg0.N := Nat.lt_of_le_of_lt (Nat.sub_le _ _) t.isLt
  obtain ⟨-, -, -, -, -, -, -, -, -, -, e50, e51, hc0, hc1⟩ := idx_facts t
  rw [Value.flushed5_C m c t h0 h3]
  funext j
  obtain ⟨r, o, rfl⟩ : ∃ (r : Fin 1024) (o : Fin 512), j = ix2 r o := ⟨j 0, j 1, eq_ix2 j⟩
  show out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3)
      (iblk m c 0 t) (iblk m c 1 t) (iblk m c 2 t) (iblk m c 3 t) (iblk m c 4 t) (outsAt0 m c (t.val - 1) hlt).2 (ix2 r o)
    = layer m c (((cfg0.win 5).blk t).view.emb (ix2 r o))
  have hemb : ((cfg0.win 5).blk t).view.emb (ix2 r o) = ix2 (blkRow (t.val / 4) r) o := by
    funext a; apply Fin.ext
    match a with
    | ⟨0, _⟩ =>
      show win0_5.index t (0 : Fin 2) * 1024 + 1 * r.val = (1024 * (t.val / 4) + r.val) % 8192
      have := r.isLt; omega
    | ⟨1, _⟩ => show win0_5.index t (1 : Fin 2) * 512 + 1 * o.val = o.val; omega
  rw [hemb]
  refine (congrFun (out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h))
    ((hcond0_1 t).mpr h3) (iblk m c 0 t) (iblk m c 1 t) (iblk m c 2 t) (iblk m c 3 t) (iblk m c 4 t) (outsAt0 m c (t.val - 1) hlt).2) (ix2 r o)).trans ?_
  refine epilogue_entry (argX m c) (argA m c) (argW m c) (argB m c) (blkRow (t.val / 4) r)
    (View.ld (iblk m c 1 t) (Rect.unit (s := S8192x512) (k0_off2 (grid0.coords t)) S1024x512.size (k0_off2_inb (grid0.coords t) ((hcond0_1 t).mpr h3))))
    (View.ld (iblk m c 2 t) (Rect.unit (s := S1024x128) ![0, 0] S1024x1.size inb_S1024x128_S1024x1_0_0))
    (k0_pay2 (F := Ideal) (rowsK (grid0.coords t) (iblk m c 1 t)) (outsAt0 m c (t.val - 1) hlt).2 (iblk m c 0 t))
    (iblk m c 3 t) (iblk m c 4 t) r o ?_ ?_ ?_ ?_ ?_
  · intro k
    have hr := r.isLt
    refine (ld_unit_ix2 (iblk m c 1 t) (k0_off2 (grid0.coords t)) (k0_off2_inb (grid0.coords t) ((hcond0_1 t).mpr h3))
      r k (blkRow (t.val / 4) r) k ?_ ?_).trans (scaledBlock_apply m c t _ _)
    · rw [k0_off2_eq, hc0]
      show (1024 * (t.val / 4) + r.val) % 8192 = 1024 * (t.val / 4) + r.val
      omega
    · rw [k0_off2_eq]
      show k.val = 0 + k.val
      omega
  · refine (ld_unit_ix2 (iblk m c 2 t) ![0, 0] inb_S1024x128_S1024x1_0_0 r (0 : Fin 1) r (0 : Fin 128) ?_ ?_).trans
      (degBlock_apply m c t r 0)
    · show r.val = 0 + r.val
      omega
    · rfl
  · intro k
    have key : ∀ s, s < 4 → addend m c (4 * (t.val / 4) + s) (ix2 r k)
        = kerBlock (argX m c) (argA m c) (blkRow (t.val / 4) r) k s := by
      intro s hs
      show kerBlock (argX m c) (argA m c) (blkRow ((4 * (t.val / 4) + s) / 4) r) k ((4 * (t.val / 4) + s) % 4) = _
      rw [show (4 * (t.val / 4) + s) / 4 = t.val / 4 by omega, show (4 * (t.val / 4) + s) % 4 = s by omega]
    have ht : t.val = 4 * (t.val / 4) + 3 := by omega
    have hs := scratch_after m c ⟨t.val - 1, hlt⟩ (ix2 r k)
    refine (step_entry m c t (outsAt0 m c (t.val - 1) hlt).2 (ix2 r k)).trans ?_
    refine (congrArg (fun z => z + addend m c t.val (ix2 r k)) hs).trans ?_
    show zeroWord + ∑ s ∈ Finset.range ((t.val - 1) % 4 + 1), addend m c (4 * ((t.val - 1) / 4) + s) (ix2 r k)
        + addend m c t.val (ix2 r k) = _
    rw [show (t.val - 1) % 4 + 1 = 3 by omega, show (t.val - 1) / 4 = t.val / 4 by omega, add_assoc,
      Finset.sum_range_succ (fun s => kerBlock (argX m c) (argA m c) (blkRow (t.val / 4) r) k s) 3]
    refine congrArg (zeroWord + ·) ?_
    refine congr (congrArg HAdd.hAdd (Finset.sum_congr rfl fun s hs' => key s (by have := Finset.mem_range.mp hs'; omega))) ?_
    calc addend m c t.val (ix2 r k) = addend m c (4 * (t.val / 4) + 3) (ix2 r k) := by rw [← ht]
      _ = _ := key 3 (by norm_num)
  · intro k
    exact weightBlock_apply m c t o k
  · exact biasBlock_apply m c t 0 o

/-- An index of the result array is in point t's output block iff each coordinate is in the block's range. -/
theorem mem_blk (t : Fin cfg0.N) (i : S8192x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v13).slice (win0_5.rect t)).set ↔ _
  rw [View.set_slice_whole, Rect.mem_set_unit]
  exact Iff.rfl

/-- The eight written-back blocks tile the result array (row i is in the block of the last point of row block
    i / 1024), so after the run it holds `layer`. -/
theorem final (c : Dev nD) : (dats m 0 c).arrAt 5 cfg0.N = layer m c :=
  (dats m 0 c).arrAt_eq_of_cover 5 (layer m c) (fun t hf => flushed_eq m c t hf) fun i => by
    have hi0 : (i 0).val < 8192 := (i 0).isLt
    have hi1 : (i 1).val < 512 := (i 1).isLt
    have hN : cfg0.N = 32 := N_0
    obtain ⟨T, hT⟩ : ∃ T : Fin cfg0.N, T.val = 4 * ((i 0).val / 1024) + 3 := ⟨⟨_, by omega⟩, rfl⟩
    obtain ⟨-, -, -, -, -, -, -, -, -, -, e50, e51, -⟩ := idx_facts T
    refine ⟨T, (flush0_5 T).mpr (by omega), ?_⟩
    rw [mem_blk]
    intro a
    match a with
    | ⟨0, _⟩ =>
      show win0_5.index T (0 : Fin 2) * 1024 ≤ (i 0).val ∧ (i 0).val < win0_5.index T (0 : Fin 2) * 1024 + 1024
      omega
    | ⟨1, _⟩ =>
      show win0_5.index T (1 : Fin 2) * 512 ≤ (i 1).val ∧ (i 1).val < win0_5.index T (1 : Fin 2) * 512 + 512
      omega

/-- The run, read: the result array at `layer`, the four arguments unchanged. -/
theorem run : θ_run defs (onTc (τ := τ) (main (F := Ideal))) ⟨m, fun _ => 0, ρ⟩ fun r => ∀ c : Dev nD,
      r.2.mem ((c : Thread nD τ).loc main_v13) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.lean ====
/-
  One graph-convolution layer with symmetric normalisation, computed two ways, is one function on the extended reals
  when the inputs are finite.

  With features X [8192, 512], adjacency A [8192, 8192], weights W [512, 512], bias B [512] and
  d_i = (Σ_j A_ij + 1)^(-1/2), both programs compute

      out_io = max ((Σ_e support_ie · W_oe) + B_o) 0,   support_ie = d_i · ((Σ_j A_ij · (d_j · X_je)) + d_i · X_ie).

  The reference forms the matrix d_i · (A_ij + δ_ij) · d_j and multiplies it by X. The kernel scales X by d first, sums
  A · (d X) over the 8192 columns in four blocks of 2048 into a running [1024, 512] sum per block of 1024 rows, and at
  the last block adds d_i X_i, multiplies by d_i, applies W and B and takes the maximum with zero. The self-loop's
  term of the reference's sum is d_i · d_i · X_ie, and d_i comes out of the rest by distributivity — a law of the reals
  that fails at the infinities, which is where the precondition is used: it makes every entry of A and X a real
  number, and then every d_i is one too, a real base to a real exponent being a real power whatever the base's sign.
  The order and grouping of the sums, the zero words they start from and the changes of float format make no
  difference on the extended reals.

  The three programs' runs terminate with their arguments unchanged; the kernel's idealization rewrote no
  operation, so there is nothing to preserve.
-/
import proofs.«155972_j30958124270375_2_alg».proof.Defs
import proofs.«155972_j30958124270375_2_alg».proof.Proof.Gen.Kernel
import proofs.«155972_j30958124270375_2_alg».proof.Proof.Gen.Kernel.Skeleton
import proofs.«155972_j30958124270375_2_alg».proof.Proof.Gen.Kernel.Launch
import proofs.«155972_j30958124270375_2_alg».proof.Proof.Gen.Kernel.Points
import proofs.«155972_j30958124270375_2_alg».proof.Proof.Gen.Kernel.Frame
import proofs.«155972_j30958124270375_2_alg».proof.Proof.Gen.KernelIdeal
import proofs.«155972_j30958124270375_2_alg».proof.Proof.Gen.KernelIdeal.Skeleton
import proofs.«155972_j30958124270375_2_alg».proof.Proof.Gen.KernelIdeal.Launch
import proofs.«155972_j30958124270375_2_alg».proof.Proof.Gen.KernelIdeal.Points
import proofs.«155972_j30958124270375_2_alg».proof.Proof.Gen.KernelIdeal.Frame
import proofs.«155972_j30958124270375_2_alg».proof.Proof.Gen.ReferenceIdeal
import proofs.«155972_j30958124270375_2_alg».proof.Proof.Gen.KernelIdeal.Value
import proofs.«155972_j30958124270375_2_alg».proof.Proof.Gen.ReferenceIdeal.Run
import proofs.«155972_j30958124270375_2_alg».proof.Proof.Gen.ReferenceIdeal.Read
import proofs.«155972_j30958124270375_2_alg».proof.Proof.Gen.Pre_finite_inputs
import proofs.«155972_j30958124270375_2_alg».proof.Proof.GcnSpec
import proofs.«155972_j30958124270375_2_alg».proof.Proof.FiniteInputs
import proofs.«155972_j30958124270375_2_alg».proof.Proof.RefForm
import proofs.«155972_j30958124270375_2_alg».proof.Proof.LayerValue
import Idealize.ShloMosaic.Adequacy
import Idealize.ShloMosaic.Init

noncomputable section

namespace Cert.Proof

open Idealize.ShloMosaic Idealize.SL.Sem Idealize.ShloMosaic.TcCoe

/-- The kernel as printed runs, its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, which are finite, both runs end with the layer `Cert.Gcn.gcn` of
    those arguments in their result arrays: the kernel's run with its own arrangement, which is the layer with no
    hypothesis; the reference's with the normalised-matrix arrangement, which is the layer because the entries are
    real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun p => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (p 0) (p 1), ?_, ?_⟩
  · refine (θ_run Cert.KernelIdeal.defs _ _).mono (fun r h c => ⟨(h c).1.trans ?_, (h c).2⟩) (Cert.KernelIdeal.Layer.run m ρ)
    funext p
    exact Cert.Gcn.kerOut_eq _ _ _ _ (p 0) (p 1)
  · refine (θ_run Cert.ReferenceIdeal.defs _ _).mono (fun r h c => ⟨(h c).1.trans ?_, (h c).2⟩)
      (Cert.ReferenceIdeal.Value.run (F := Ideal) m' ρ')
    show Cert.ReferenceIdeal.Read.val_main_v22 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [Cert.ReferenceIdeal.RefValue.result_eq, (hagree c).1, (hagree c).2.1, (hagree c).2.2.1, (hagree c).2.2.2]
    obtain ⟨hX, hA⟩ := Cert.Gcn.real_entries_of_pre _ _ _ _ (hpre c)
    funext p
    exact Cert.Gcn.refOut_eq _ _ _ _ hA hX (p 0) (p 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
